-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S128x8 .f32) (main_arg10 : FVec F S8 .f32) (main_v33 : IVec S_ 1) : IVec S_ 1 :=
  let main_v34 : FVec F S128x8 .f32 := Host.absf main_arg9
  let main_cst_12 : FVec F S_ .f32 := constant S_ .f32 0x7F800000#32
  let main_v35 : FVec F S128x8 .f32 := broadcastInDim S128x8 ![] bcast_S_S128x8 main_cst_12
  let main_v36 : IVec S128x8 1 := cmpf .olt main_v34 main_v35
  let main_c_13 : IVec S_ 1 := constantI S_ 1 1#1
  let main_v37 : IVec S_ 1 := (fun x v => Host.reduce IntOp.andi x v reducesTo_S128x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x8 .f32) (main_arg10 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x8 .f32) (main_arg10 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1000x128 : Shape := ⟨2, ![1000, 128]⟩
abbrev S1000x1 : Shape := ⟨2, ![1000, 1]⟩
abbrev S1x8 : Shape := ⟨2, ![1, 8]⟩
abbrev S1000x8 : Shape := ⟨2, ![1000, 8]⟩

abbrev nBuf : Space → Nat
  | .hbm => 75
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x8, .f32⟩
  | .hbm, ⟨10, _⟩ => ⟨S8, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S_, .f32⟩
  | .hbm, ⟨59, _⟩ => ⟨S1000x128, .f32⟩
  | .hbm, ⟨60, _⟩ => ⟨S100000x1, .i32⟩
  | .hbm, ⟨61, _⟩ => ⟨S1000x128, .f32⟩
  | .hbm, ⟨62, _⟩ => ⟨S_, .f32⟩
  | .hbm, ⟨63, _⟩ => ⟨S100000x1, .f32⟩
  | .hbm, ⟨64, _⟩ => ⟨S_, .f32⟩
  | .hbm, ⟨65, _⟩ => ⟨S1000x1, .f32⟩
  | .hbm, ⟨66, _⟩ => ⟨S100000x1, .i32⟩
  | .hbm, ⟨67, _⟩ => ⟨S1000x1, .f32⟩
  | .hbm, ⟨68, _⟩ => ⟨S_, .f32⟩
  | .hbm, ⟨69, _⟩ => ⟨S1000x1, .f32⟩
  | .hbm, ⟨70, _⟩ => ⟨S1000x1, .f32⟩
  | .hbm, ⟨71, _⟩ => ⟨S1000x128, .f32⟩
  | .hbm, ⟨72, _⟩ => ⟨S1000x128, .f32⟩
  | .hbm, ⟨73, _⟩ => ⟨S1x8, .f32⟩
  | .hbm, ⟨74, _⟩ => ⟨S1000x8, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1000x128, .f32⟩
  | .local _ .vmem, ⟨19, _⟩ => ⟨S128x8, .f32⟩
  | .local _ .vmem, ⟨20, _⟩ => ⟨S1x8, .f32⟩
  | .local _ .vmem, ⟨21, _⟩ => ⟨S1000x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  shapeCasts_S8_S1x8 : S8.ShapeCasts S1x8
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1000x8 : S1x8.Broadcasts S1000x8
  inb_S1000x8_S1000x8_0_0 : ∀ a, (![0, 0] : Fin 2 → Nat) a + S1000x8.size a ≤ S1000x8.size a
  h_S1000x8 : 0 < S1000x8.numel
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S1000x128_S100000x1_S100000x128_1_0_0_1_wf : ScatterDims.WF S1000x128 S100000x1 S100000x128 [1] [0] [0] 1
  scatter_S1000x1_S100000x1_S100000x1_1_0_0_1_wf : ScatterDims.WF S1000x1 S100000x1 S100000x1 [1] [0] [0] 1
  dot_S1000x128_S128x8_S1000x8_1_0_0_1_n_n_wf : DotDims.WF S1000x128 S128x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S1000x128.size a
  hwx2_0 : ∀ i : grid2.Coords, EltTy.bits .f32 = 32 ∨ (Rect.block (s := S1000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x8.size a ≤ S128x8.size a
  hwx2_1 : ∀ i : grid2.Coords, EltTy.bits .f32 = 32 ∨ (Rect.block (s := S128x8) S128x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1000x8.size a ≤ S1000x8.size a
  hwx2_3 : ∀ i : grid2.Coords, EltTy.bits .f32 = 32 ∨ (Rect.block (s := S1000x8) S1000x8.size (cc2_transform_3 i) (hinb2_3 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x128_S128x8_S1000x8_1_0_0_1_n_n : DotDims S1000x128 S128x8 S1000x8 where
  lhsContracting := [1]
  rhsContracting := [0]
  lhsNonContracting := [0]
  rhsNonContracting := [1]
  lhsBatch := []
  rhsBatch := []
  wf := dot_S1000x128_S128x8_S1000x8_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S1000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1000x8.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1000x128 : Shape := ⟨2, ![1000, 128]⟩
abbrev S1000x1 : Shape := ⟨2, ![1000, 1]⟩
abbrev S1000x8 : Shape := ⟨2, ![1000, 8]⟩
abbrev S1x8 : Shape := ⟨2, ![1, 8]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x8, .f32⟩
  | .hbm, ⟨10, _⟩ => ⟨S8, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000x1, .f32⟩
  | .hbm, ⟨63, _⟩ => ⟨S_, .f32⟩
  | .hbm, ⟨64, _⟩ => ⟨S100000x1, .f32⟩
  | .hbm, ⟨65, _⟩ => ⟨S1600000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S1000x128, .f32⟩
  | .hbm, ⟨83, _⟩ => ⟨S100000x1, .i32⟩
  | .hbm, ⟨84, _⟩ => ⟨S1000x128, .f32⟩
  | .hbm, ⟨85, _⟩ => ⟨S_, .f32⟩
  | .hbm, ⟨86, _⟩ => ⟨S100000x1, .f32⟩
  | .hbm, ⟨87, _⟩ => ⟨S_, .f32⟩
  | .hbm, ⟨88, _⟩ => ⟨S1000x1, .f32⟩
  | .hbm, ⟨89, _⟩ => ⟨S100000x1, .i32⟩
  | .hbm, ⟨90, _⟩ => ⟨S1000x1, .f32⟩
  | .hbm, ⟨91, _⟩ => ⟨S_, .f32⟩
  | .hbm, ⟨92, _⟩ => ⟨S1000x1, .f32⟩
  | .hbm, ⟨93, _⟩ => ⟨S1000x1, .f32⟩
  | .hbm, ⟨94, _⟩ => ⟨S1000x128, .f32⟩
  | .hbm, ⟨95, _⟩ => ⟨S1000x128, .f32⟩
  | .hbm, ⟨96, _⟩ => ⟨S1000x8, .f32⟩
  | .hbm, ⟨97, _⟩ => ⟨S1x8, .f32⟩
  | .hbm, ⟨98, _⟩ => ⟨S1000x8, .f32⟩
  | .hbm, ⟨99, _⟩ => ⟨S1000x8, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_11 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S8_S1x8_1 : S8.BroadcastsInDim S1x8 (![1] : Fin 1 → Fin S1x8.rank)
  bcast_S1x8_S1000x8_0_1 : S1x8.BroadcastsInDim S1000x8 (![0, 1] : Fin 2 → Fin S1000x8.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000x1_S100000x1_S100000x1_1_0_0_1_wf : ScatterDims.WF S1000x1 S100000x1 S100000x1 [1] [0] [0] 1
  dot_S1000x128_S128x8_S1000x8_1_0_0_1_n_n_wf : DotDims.WF S1000x128 S128x8 S1000x8 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x128_S128x8_S1000x8_1_0_0_1_n_n : DotDims S1000x128 S128x8 S1000x8 where
  lhsContracting := [1]
  rhsContracting := [0]
  lhsNonContracting := [0]
  rhsNonContracting := [1]
  lhsBatch := []
  rhsBatch := []
  wf := dot_S1000x128_S128x8_S1000x8_1_0_0_1_n_n_wf

class Facts : Prop extends Facts₀ where

variable [Facts]
-- ==== Proof.KernelRun.lean ====
/-
  The idealized kernel's run with its result named.

  Every weakly fair execution of @main from a memory with zero counters terminates without a fault.  @main is three
  stretches of host operations, each followed by a kernel region, and the buffer contents at the six segment boundaries are
  a fold from the launch memory: a host stretch applies its operations, a region overwrites its output array with what
  its write-backs leave and keeps every other buffer.  At the end every buffer that outlives the regions holds the last
  boundary's contents; read at the result buffer that is the last region's output array after its write-backs, and read at
  an argument it walks back to the launch memory, since nothing writes an argument.
-/
import proofs.«100718_j30081950941185_1_alg».proof.Proof.KernelIdealFrame

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Run

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibSumLayer.lean ====
/-
  Two dense layers of a feature matrix, read at an entry.

  For h of shape [n, d] and w of shape [d, e], entry (p, q) of the product h · w is Σ_k h (p, k) · w (k, q).
  The rectified sum layer max ((a · wl + x · wr) + b, z) sends a node's aggregated neighbourhood a through wl and
  its own features x through wr, adds the two products FIRST, then the bias row's entry q, and takes the maximum
  with a constant z.  The affine layer h · w + b adds the bias row's entry q to the product.  Both are stated as
  arrays over any row count n, so that a block of rows and the whole matrix are read by one formula: entry (p, q)
  depends on row p of the left factors only.

  On a block of rows the matrix unit computes exactly these entries: a product into a zero accumulator is the
  textbook sum, a change of float format is the identity on extended reals, and a bias held as a [1, e] block and
  laid under every row reads its entry (0, q).  All sums are finite sums on the extended reals and nothing is
  rearranged, so no finiteness of the data is used.
  Library imports and the sibling lemma file LibDot only.
-/
import Idealize.ShloMosaic.PureOps.Ideal.Laws
import Idealize.ShloMosaic.Lib.ValueIdx
import Idealize.ShloMosaic.Lib.ValueLayout
import Idealize.ShloMosaic.Lib.Pipeline.Value
import proofs.«100718_j30081950941185_1_alg».proof.Proof.LibDot

noncomputable section

namespace Cert.LibSumLayer

open Idealize.ShloMosaic Idealize.ShloMosaic.ValueIdx
open scoped BigOperators

variable {n d e : ℕ}

/-- Entry (p, q) of the product h · w: the sum over k of h (p, k) · w (k, q). -/
def prodAt (h : (⟨2, ![n, d]⟩ : Shape).Idx → EReal) (w : (⟨2, ![d, e]⟩ : Shape).Idx → EReal) (p : Fin n) (q : Fin e) : EReal :=
  ∑ k : Fin d, h (ix2 p k) * w (ix2 k q)

/-- The rectified sum layer max ((a · wl + x · wr) + b, z), as an array of shape [n, e]; the bias is a length-e row. -/
def sumLayer (z : EReal) (a x : (⟨2, ![n, d]⟩ : Shape).Idx → EReal) (wl wr : (⟨2, ![d, e]⟩ : Shape).Idx → EReal)
    (b : (⟨1, ![e]⟩ : Shape).Idx → EReal) : (⟨2, ![n, e]⟩ : Shape).Idx → EReal :=
  fun i => max ((prodAt a wl (i 0) (i 1) + prodAt x wr (i 0) (i 1)) + b (ix1 (i 1))) z

/-- The affine layer h · w + b, as an array of shape [n, e]; the bias is a length-e row. -/
def affine (h : (⟨2, ![n, d]⟩ : Shape).Idx → EReal) (w : (⟨2, ![d, e]⟩ : Shape).Idx → EReal)
    (b : (⟨1, ![e]⟩ : Shape).Idx → EReal) : (⟨2, ![n, e]⟩ : Shape).Idx → EReal :=
  fun i => prodAt h w (i 0) (i 1) + b (ix1 (i 1))

theorem sumLayer_ix2 (z : EReal) (a x : (⟨2, ![n, d]⟩ : Shape).Idx → EReal) (wl wr : (⟨2, ![d, e]⟩ : Shape).Idx → EReal)
    (b : (⟨1, ![e]⟩ : Shape).Idx → EReal) (p : Fin n) (q : Fin e) :
    sumLayer z a x wl wr b (ix2 p q) = max ((prodAt a wl p q + prodAt x wr p q) + b (ix1 q)) z := rfl

theorem affine_ix2 (h : (⟨2, ![n, d]⟩ : Shape).Idx → EReal) (w : (⟨2, ![d, e]⟩ : Shape).Idx → EReal)
    (b : (⟨1, ![e]⟩ : Shape).Idx → EReal) (p : Fin n) (q : Fin e) :
    affine h w b (ix2 p q) = prodAt h w p q + b (ix1 q) := rfl

/-- A product's entry depends on the factors only through the row and the column it reads. -/
theorem prodAt_congr {n' : ℕ} (h : (⟨2, ![n, d]⟩ : Shape).Idx → EReal) (h' : (⟨2, ![n', d]⟩ : Shape).Idx → EReal)
    (w w' : (⟨2, ![d, e]⟩ : Shape).Idx → EReal) (p : Fin n) (p' : Fin n') (q : Fin e)
    (hh : ∀ k : Fin d, h (ix2 p k) = h' (ix2 p' k)) (hw : ∀ k : Fin d, w (ix2 k q) = w' (ix2 k q)) :
    prodAt h w p q = prodAt h' w' p' q :=
  Finset.sum_congr rfl fun k _ => by rw [hh k, hw k]

section Unit

variable (D : DotDims ⟨2, ![n, d]⟩ ⟨2, ![d, e]⟩ ⟨2, ![n, e]⟩) (hr : D.contr.rank = 1)
  (hs : D.contr.size ⟨0, by omega⟩ = d)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The matrix unit's product into a zero accumulator, at (p, q), is the product's entry. -/
theorem unit_prod_apply {φ₁ φ₂ : FTy} (h : FVec Ideal ⟨2, ![n, d]⟩ φ₁) (w : FVec Ideal ⟨2, ![d, e]⟩ φ₂) (p : Fin n) (q : Fin e) :
    FloatOps.matmul D none h w (constant ⟨2, ![n, e]⟩ .f32 0x00000000#32) (ix2 p q) = prodAt h w p q :=
  LibDot.matmul_zero_apply D hr hs hl0 hl1 hr0 hr1 none h w p q

/-- The rectified sum layer as the matrix unit computes it on a block whose bias is a [1, e] block, at (p, q). -/
theorem unit_sumLayer_apply {φ₁ φ₂ : FTy} (z : EReal) (a x : FVec Ideal ⟨2, ![n, d]⟩ φ₁) (wl wr : FVec Ideal ⟨2, ![d, e]⟩ φ₂)
    (bb : (⟨2, ![1, e]⟩ : Shape).Idx → EReal) (hb : (⟨2, ![1, e]⟩ : Shape).Broadcasts ⟨2, ![n, e]⟩) (p : Fin n) (q : Fin e) :
    max ((FloatOps.matmul D none a wl (constant ⟨2, ![n, e]⟩ .f32 0x00000000#32) (ix2 p q)
          + FloatOps.matmul D none x wr (constant ⟨2, ![n, e]⟩ .f32 0x00000000#32) (ix2 p q))
        + broadcastTo ⟨2, ![n, e]⟩ bb hb (ix2 p q)) z
      = max ((prodAt a wl p q + prodAt x wr p q) + bb (ix2 (0 : Fin 1) q)) z := by
  rw [unit_prod_apply D hr hs hl0 hl1 hr0 hr1 a wl p q, unit_prod_apply D hr hs hl0 hl1 hr0 hr1 x wr p q,
    broadcastTo_1b_ab_apply bb hb p q]

/-- The affine layer as the matrix unit computes it on a block whose bias is a [1, e] block, at (p, q). -/
theorem unit_affine_apply {φ₁ φ₂ : FTy} (h : FVec Ideal ⟨2, ![n, d]⟩ φ₁) (w : FVec Ideal ⟨2, ![d, e]⟩ φ₂)
    (bb : (⟨2, ![1, e]⟩ : Shape).Idx → EReal) (hb : (⟨2, ![1, e]⟩ : Shape).Broadcasts ⟨2, ![n, e]⟩) (p : Fin n) (q : Fin e) :
    FloatOps.matmul D none h w (constant ⟨2, ![n, e]⟩ .f32 0x00000000#32) (ix2 p q) + broadcastTo ⟨2, ![n, e]⟩ bb hb (ix2 p q)
      = prodAt h w p q + bb (ix2 (0 : Fin 1) q) := by
  rw [unit_prod_apply D hr hs hl0 hl1 hr0 hr1 h w p q, broadcastTo_1b_ab_apply bb hb p q]

end Unit

end Cert.LibSumLayer

end
-- ==== Proof.KernelDots.lean ====
/-
  The three matrix products of the kernel bodies contract the left factor's axis 1 with the right factor's axis 0 and
  have no batch axis: the contraction index has one coordinate, of the inner extent, and at output entry j and
  contraction index c the left factor is read at (j 0, c) and the right factor at (c, j 1).
-/
import proofs.«100718_j30081950941185_1_alg».proof.Proof.Gen.KernelIdeal
import Idealize.ShloMosaic.Lib.ValueIdx

noncomputable section

namespace Cert.KernelIdeal.Dots

open Cert.KernelIdeal Idealize.ShloMosaic

/-! ## a [5000, 64] block times a [64, 128] weight -/

theorem rankA : dot_S5000x64_S64x128_S5000x128_1_0_0_1_n_n.contr.rank = 1 := rfl
theorem sizeA : dot_S5000x64_S64x128_S5000x128_1_0_0_1_n_n.contr.size ⟨0, by decide⟩ = 64 := rfl
theorem lhsA0 (j : S5000x128.Idx) (c : dot_S5000x64_S64x128_S5000x128_1_0_0_1_n_n.contr.Idx) :
    (dot_S5000x64_S64x128_S5000x128_1_0_0_1_n_n.lhsIdx j c 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhsA1 (j : S5000x128.Idx) (c : dot_S5000x64_S64x128_S5000x128_1_0_0_1_n_n.contr.Idx) :
    (dot_S5000x64_S64x128_S5000x128_1_0_0_1_n_n.lhsIdx j c 1).val = (c ⟨0, by decide⟩).val :=
  dot_S5000x64_S64x128_S5000x128_1_0_0_1_n_n.lhsIdx_val_of_single rfl j c
theorem rhsA0 (j : S5000x128.Idx) (c : dot_S5000x64_S64x128_S5000x128_1_0_0_1_n_n.contr.Idx) :
    (dot_S5000x64_S64x128_S5000x128_1_0_0_1_n_n.rhsIdx j c 0).val = (c ⟨0, by decide⟩).val :=
  dot_S5000x64_S64x128_S5000x128_1_0_0_1_n_n.rhsIdx_val_of_single rfl j c
theorem rhsA1 (j : S5000x128.Idx) (c : dot_S5000x64_S64x128_S5000x128_1_0_0_1_n_n.contr.Idx) :
    (dot_S5000x64_S64x128_S5000x128_1_0_0_1_n_n.rhsIdx j c 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-! ## a [5000, 128] block times a [128, 128] weight -/

theorem rankB : dot_S5000x128_S128x128_S5000x128_1_0_0_1_n_n.contr.rank = 1 := rfl
theorem sizeB : dot_S5000x128_S128x128_S5000x128_1_0_0_1_n_n.contr.size ⟨0, by decide⟩ = 128 := rfl
theorem lhsB0 (j : S5000x128.Idx) (c : dot_S5000x128_S128x128_S5000x128_1_0_0_1_n_n.contr.Idx) :
    (dot_S5000x128_S128x128_S5000x128_1_0_0_1_n_n.lhsIdx j c 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB1 (j : S5000x128.Idx) (c : dot_S5000x128_S128x128_S5000x128_1_0_0_1_n_n.contr.Idx) :
    (dot_S5000x128_S128x128_S5000x128_1_0_0_1_n_n.lhsIdx j c 1).val = (c ⟨0, by decide⟩).val :=
  dot_S5000x128_S128x128_S5000x128_1_0_0_1_n_n.lhsIdx_val_of_single rfl j c
theorem rhsB0 (j : S5000x128.Idx) (c : dot_S5000x128_S128x128_S5000x128_1_0_0_1_n_n.contr.Idx) :
    (dot_S5000x128_S128x128_S5000x128_1_0_0_1_n_n.rhsIdx j c 0).val = (c ⟨0, by decide⟩).val :=
  dot_S5000x128_S128x128_S5000x128_1_0_0_1_n_n.rhsIdx_val_of_single rfl j c
theorem rhsB1 (j : S5000x128.Idx) (c : dot_S5000x128_S128x128_S5000x128_1_0_0_1_n_n.contr.Idx) :
    (dot_S5000x128_S128x128_S5000x128_1_0_0_1_n_n.rhsIdx j c 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## the [1000, 128] pooled matrix times the [128, 8] head weight -/

theorem rankC : dot_S1000x128_S128x8_S1000x8_1_0_0_1_n_n.contr.rank = 1 := rfl
theorem sizeC : dot_S1000x128_S128x8_S1000x8_1_0_0_1_n_n.contr.size ⟨0, by decide⟩ = 128 := rfl
theorem lhsC0 (j : S1000x8.Idx) (c : dot_S1000x128_S128x8_S1000x8_1_0_0_1_n_n.contr.Idx) :
    (dot_S1000x128_S128x8_S1000x8_1_0_0_1_n_n.lhsIdx j c 0).val = (j 0).val := by
  unfold DotDims.lhsIdx
  rw [dif_neg (show ¬(0 : Fin S1000x128.rank) ∈ dot_S1000x128_S128x8_S1000x8_1_0_0_1_n_n.lhsBatch by decide), dif_pos (show (0 : Fin S1000x128.rank) ∈ dot_S1000x128_S128x8_S1000x8_1_0_0_1_n_n.lhsNonContracting by decide)]
  rfl
theorem lhsC1 (j : S1000x8.Idx) (c : dot_S1000x128_S128x8_S1000x8_1_0_0_1_n_n.contr.Idx) :
    (dot_S1000x128_S128x8_S1000x8_1_0_0_1_n_n.lhsIdx j c 1).val = (c ⟨0, by decide⟩).val :=
  dot_S1000x128_S128x8_S1000x8_1_0_0_1_n_n.lhsIdx_val_of_single rfl j c
theorem rhsC0 (j : S1000x8.Idx) (c : dot_S1000x128_S128x8_S1000x8_1_0_0_1_n_n.contr.Idx) :
    (dot_S1000x128_S128x8_S1000x8_1_0_0_1_n_n.rhsIdx j c 0).val = (c ⟨0, by decide⟩).val :=
  dot_S1000x128_S128x8_S1000x8_1_0_0_1_n_n.rhsIdx_val_of_single rfl j c
theorem rhsC1 (j : S1000x8.Idx) (c : dot_S1000x128_S128x8_S1000x8_1_0_0_1_n_n.contr.Idx) :
    (dot_S1000x128_S128x8_S1000x8_1_0_0_1_n_n.rhsIdx j c 1).val = (j 1).val := by
  unfold DotDims.rhsIdx
  rw [dif_neg (show ¬(1 : Fin S128x8.rank) ∈ dot_S1000x128_S128x8_S1000x8_1_0_0_1_n_n.rhsBatch by decide), dif_pos (show (1 : Fin S128x8.rank) ∈ dot_S1000x128_S128x8_S1000x8_1_0_0_1_n_n.rhsNonContracting by decide)]
  rfl

end Cert.KernelIdeal.Dots

end
-- ==== Proof.Payloads.lean ====
/-
  What each kernel body stores, read at an entry of its block.

  The two combine bodies store max ((a · wl + x · wr) + b, 0) of their five loaded blocks — the aggregated rows a, the
  node rows x, the two weights and the bias held as a [1, 128] block —, and the head's body stores h · w + b of its
  three.  At the ideal reading the narrowing to bf16 before each product is the identity, a cast of a block to its
  own shape is the identity, and each product into a zero accumulator is the textbook sum over the inner index.
-/
import proofs.«100718_j30081950941185_1_alg».proof.Proof.Gen.KernelIdeal.Skeleton
import proofs.«100718_j30081950941185_1_alg».proof.Proof.LibSumLayer
import proofs.«100718_j30081950941185_1_alg».proof.Proof.KernelDots

noncomputable section

namespace Cert.KernelIdeal.Payload

open Cert.KernelIdeal Cert.KernelIdeal.Gen Idealize.ShloMosaic Idealize.ShloMosaic.ValueIdx Cert.LibSumLayer

/-- The first combine body's stored value at (p, q): inner extent 64. -/
theorem pay0_apply (x0 x1 : Vec Ideal S5000x64 .f32) (x2 x3 : Vec Ideal S64x128 .f32) (x4 : Vec Ideal S1x128 .f32)
    (p : Fin 5000) (q : Fin 128) :
    k0_pay1 (F := Ideal) x0 x1 x2 x3 x4 (ix2 p q)
      = max ((prodAt x0 x2 p q + prodAt x1 x3 p q) + x4 (ix2 (0 : Fin 1) q)) (Ideal.ofBits .f32 0x00000000#32) := by
  unfold k0_pay1
  rw [shapeCast_self, shapeCast_self]
  exact unit_sumLayer_apply dot_S5000x64_S64x128_S5000x128_1_0_0_1_n_n Dots.rankA Dots.sizeA Dots.lhsA0 Dots.lhsA1 Dots.rhsA0 Dots.rhsA1
    (Ideal.ofBits .f32 0x00000000#32) (truncf .bf16 x0 bitsLt_bf16_f32) (truncf .bf16 x1 bitsLt_bf16_f32)
    (truncf .bf16 x2 bitsLt_bf16_f32) (truncf .bf16 x3 bitsLt_bf16_f32) x4 broadcasts_S1x128_S5000x128 p q

/-- The second combine body's stored value at (p, q): inner extent 128. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max ((prodAt x0 x2 p q + prodAt x1 x3 p q) + x4 (ix2 (0 : Fin 1) q)) (Ideal.ofBits .f32 0x00000000#32) := by
  unfold k1_pay1
  rw [shapeCast_self, shapeCast_self, shapeCast_self]
  exact unit_sumLayer_apply dot_S5000x128_S128x128_S5000x128_1_0_0_1_n_n Dots.rankB Dots.sizeB Dots.lhsB0 Dots.lhsB1 Dots.rhsB0 Dots.rhsB1
    (Ideal.ofBits .f32 0x00000000#32) (truncf .bf16 x0 bitsLt_bf16_f32) (truncf .bf16 x1 bitsLt_bf16_f32)
    (truncf .bf16 x2 bitsLt_bf16_f32) (truncf .bf16 x3 bitsLt_bf16_f32) x4 broadcasts_S1x128_S5000x128 p q

/-- The head body's stored value at (p, q). -/
theorem pay2_apply (x0 : Vec Ideal S1000x128 .f32) (x1 : Vec Ideal S128x8 .f32) (x2 : Vec Ideal S1x8 .f32)
    (p : Fin 1000) (q : Fin 8) :
    k2_pay1 (F := Ideal) x0 x1 x2 (ix2 p q) = prodAt x0 x1 p q + x2 (ix2 (0 : Fin 1) q) := by
  unfold k2_pay1
  rw [shapeCast_self, shapeCast_self]
  exact unit_affine_apply dot_S1000x128_S128x8_S1000x8_1_0_0_1_n_n Dots.rankC Dots.sizeC Dots.lhsC0 Dots.lhsC1 Dots.rhsC0 Dots.rhsC1
    (truncf .bf16 x0 bitsLt_bf16_f32) (truncf .bf16 x1 bitsLt_bf16_f32) x2 broadcasts_S1x8_S1000x8 p q

end Cert.KernelIdeal.Payload

end
-- ==== Proof.Region0.lean ====
/-
  The first combine region: its output array after the run is the rectified sum layer of its five operand arrays.

  The region runs its body at twenty grid points.  At point t the two row-blocked inputs are rows 5000 t … 5000 t + 4999 of
  their arrays, the two weights and the bias block are the whole of theirs at every point, and the body's one store fills
  the output's block, rows 5000 t … 5000 t + 4999 of the output array.  Entry (p, q) of what the body stores is the rectified
  sum layer of its blocks at (p, q), which reads row p of the row blocks only: that is entry (5000 t + p, q) of the SAME
  layer formula taken over the whole arrays.  So what every point writes back is its block of one whole-array function,
  the twenty blocks cover the output array, and the array ends holding that function — in whatever order the points ran.
-/
import proofs.«100718_j30081950941185_1_alg».proof.Proof.KernelIdealFrame
import proofs.«100718_j30081950941185_1_alg».proof.Proof.Payloads
import Idealize.ShloMosaic.Lib.Pipeline.Value

set_option maxRecDepth 16384

noncomputable section

namespace Cert.KernelIdeal.Layer0

open Cert.KernelIdeal Cert.KernelIdeal.Gen Cert.KernelIdeal.GenP
open Idealize.ShloMosaic Idealize.ShloMosaic.TcCoe Idealize.SL.Sem Idealize.ShloMosaic.ValueIdx Cert.LibSumLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the resident ones at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer over the region's whole operand arrays as it finds them, the bias given as a length-128 row. -/
abbrev layer (c : Dev nD) (b : S128.Idx → EReal) : S100000x128.Idx → EReal :=
  sumLayer (Ideal.ofBits .f32 0x00000000#32) (V c main_v21 : S100000x64.Idx → EReal) (V c main_arg0 : S100000x64.Idx → EReal)
    (V c main_arg3 : S64x128.Idx → EReal) (V c main_arg4 : S64x128.Idx → EReal) b

/-- What point t writes back is block t of the layer, when the bias block's row is b. -/
theorem flushed_eq (c : Dev nD) (b : S128.Idx → EReal)
    (hb : ∀ q : Fin 128, (V c main_v22 : S1x128.Idx → EReal) (ix2 (0 : Fin 1) q) = b (ix1 q)) (t : Fin cfg0.N) :
    (dat0 V c).flushed 5 t = ((cfg0.win 5).blk t).view.read (Elt Ideal) (layer V c b) := by
  have ht : t.val < 20 := lt_of_lt_of_eq t.isLt N_0
  obtain ⟨e00, e01, e10, e11, e20, e21, e30, e31, e40, e41, e50, e51⟩ := idx_facts t
  show (cfg0.win 5).cut (grid0.coords t) ((dat0 V c).after 5 t) = _
  rw [after0_5]
  unfold out0_5
  rw [View.canon_unit_zero hz]
  simp only [View.ld_unit_zero (S := S5000x64) hz, View.ld_unit_zero (S := S64x128) hz, View.ld_unit_zero (S := S1x128) hz]
  funext j
  obtain ⟨p, q, rfl⟩ : ∃ (p : Fin 5000) (q : Fin 128), j = ix2 p q := ⟨j 0, j 1, eq_ix2 j⟩
  have hp : 5000 * t.val + p.val < 100000 := by have := p.isLt; omega
  -- the output's block at (p, q) is the array's entry (5000 t + p, q)
  have hemb : ((cfg0.win 5).blk t).view.emb (ix2 p q) = ix2 (⟨5000 * t.val + p.val, hp⟩ : Fin 100000) q := by
    funext a; apply Fin.ext
    match a with
    | ⟨0, _⟩ => show win0_5.index t (0 : Fin 2) * 5000 + 1 * p.val = 5000 * t.val + p.val; rw [e50]; omega
    | ⟨1, _⟩ => show win0_5.index t (1 : Fin 2) * 128 + 1 * q.val = q.val; rw [e51]; omega
  show k0_pay1 (F := Ideal) (iblk0 V c 0 t) (iblk0 V c 1 t) (iblk0 V c 2 t) (iblk0 V c 3 t) (iblk0 V c 4 t) (ix2 p q)
      = layer V c b (((cfg0.win 5).blk t).view.emb (ix2 p q))
  rw [hemb]
  refine (Payload.pay0_apply (iblk0 V c 0 t) (iblk0 V c 1 t) (iblk0 V c 2 t) (iblk0 V c 3 t) (iblk0 V c 4 t) p q).trans ?_
  -- each input block read where the output's row says
  have h0 : ∀ i : Fin 64, (iblk0 V c 0 t : Vec Ideal S5000x64 .f32) (ix2 p i) = (V c main_v21 : S100000x64.Idx → EReal) (ix2 (⟨5000 * t.val + p.val, hp⟩ : Fin 100000) i) := fun i => by
    show V c main_v21 (((cfg0.win 0).blk t).view.emb (ix2 p i)) = V c main_v21 _
    refine congrArg _ (funext fun a => Fin.ext ?_)
    match a with
    | ⟨0, _⟩ => show win0_0.index t (0 : Fin 2) * 5000 + 1 * p.val = 5000 * t.val + p.val; rw [e00]; omega
    | ⟨1, _⟩ => show win0_0.index t (1 : Fin 2) * 64 + 1 * i.val = i.val; rw [e01]; omega
  have h1 : ∀ i : Fin 64, (iblk0 V c 1 t : Vec Ideal S5000x64 .f32) (ix2 p i) = (V c main_arg0 : S100000x64.Idx → EReal) (ix2 (⟨5000 * t.val + p.val, hp⟩ : Fin 100000) i) := fun i => by
    show V c main_arg0 (((cfg0.win 1).blk t).view.emb (ix2 p i)) = V c main_arg0 _
    refine congrArg _ (funext fun a => Fin.ext ?_)
    match a with
    | ⟨0, _⟩ => show win0_1.index t (0 : Fin 2) * 5000 + 1 * p.val = 5000 * t.val + p.val; rw [e10]; omega
    | ⟨1, _⟩ => show win0_1.index t (1 : Fin 2) * 64 + 1 * i.val = i.val; rw [e11]; omega
  have h2 : ∀ i : Fin 64, (iblk0 V c 2 t : Vec Ideal S64x128 .f32) (ix2 i q) = (V c main_arg3 : S64x128.Idx → EReal) (ix2 i q) := fun i => by
    show V c main_arg3 (((cfg0.win 2).blk t).view.emb (ix2 i q)) = V c main_arg3 _
    refine congrArg _ (funext fun a => Fin.ext ?_)
    match a with
    | ⟨0, _⟩ => show win0_2.index t (0 : Fin 2) * 64 + 1 * i.val = i.val; rw [e20]; omega
    | ⟨1, _⟩ => show win0_2.index t (1 : Fin 2) * 128 + 1 * q.val = q.val; rw [e21]; omega
  have h3 : ∀ i : Fin 64, (iblk0 V c 3 t : Vec Ideal S64x128 .f32) (ix2 i q) = (V c main_arg4 : S64x128.Idx → EReal) (ix2 i q) := fun i => by
    show V c main_arg4 (((cfg0.win 3).blk t).view.emb (ix2 i q)) = V c main_arg4 _
    refine congrArg _ (funext fun a => Fin.ext ?_)
    match a with
    | ⟨0, _⟩ => show win0_3.index t (0 : Fin 2) * 64 + 1 * i.val = i.val; rw [e30]; omega
    | ⟨1, _⟩ => show win0_3.index t (1 : Fin 2) * 128 + 1 * q.val = q.val; rw [e31]; omega
  have h4 : (iblk0 V c 4 t : Vec Ideal S1x128 .f32) (ix2 (0 : Fin 1) q) = b (ix1 q) := by
    refine Eq.trans ?_ (hb q)
    show V c main_v22 (((cfg0.win 4).blk t).view.emb (ix2 (0 : Fin 1) q)) = V c main_v22 _
    refine congrArg _ (funext fun a => Fin.ext ?_)
    match a with
    | ⟨0, _⟩ => show win0_4.index t (0 : Fin 2) * 1 + 1 * 0 = 0; rw [e40]
    | ⟨1, _⟩ => show win0_4.index t (1 : Fin 2) * 128 + 1 * q.val = q.val; rw [e41]; omega
  rw [h4]
  show max ((prodAt (iblk0 V c 0 t) (iblk0 V c 2 t) p q + prodAt (iblk0 V c 1 t) (iblk0 V c 3 t) p q) + b (ix1 q)) (Ideal.ofBits .f32 0x00000000#32)
      = max ((prodAt (V c main_v21 : S100000x64.Idx → EReal) (V c main_arg3 : S64x128.Idx → EReal) (⟨5000 * t.val + p.val, hp⟩ : Fin 100000) q
            + prodAt (V c main_arg0 : S100000x64.Idx → EReal) (V c main_arg4 : S64x128.Idx → EReal) (⟨5000 * t.val + p.val, hp⟩ : Fin 100000) q)
          + b (ix1 q)) (Ideal.ofBits .f32 0x00000000#32)
  rw [prodAt_congr _ _ _ _ p _ q h0 h2, prodAt_congr _ _ _ _ p _ q h1 h3]

/-- An index of the output array is in point t's block iff its row is one of the block's 5000. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every entry of the output array is in some point's block: row r is in block r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, e50, e51⟩ := idx_facts t
  have etv : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e50, etv]; omega
  | ⟨1, _⟩ => show win0_5.index t (1 : Fin 2) * 128 ≤ (i 1).val ∧ (i 1).val < win0_5.index t (1 : Fin 2) * 128 + 128; rw [e51]; omega

/-- The output array after the region: the layer over the whole operand arrays. -/
theorem final (c : Dev nD) (b : S128.Idx → EReal)
    (hb : ∀ q : Fin 128, (V c main_v22 : S1x128.Idx → EReal) (ix2 (0 : Fin 1) q) = b (ix1 q)) :
    (dat0 V c).arrAt 5 cfg0.N = layer V c b :=
  (dat0 V c).arrAt_eq_of_cover 5 (layer V c b) (fun t _ => flushed_eq V c b hb t) cover

end Cert.KernelIdeal.Layer0

end
-- ==== Proof.Region1.lean ====
/-
  The second combine region: its output array after the run is the rectified sum layer of its five operand arrays.

  The region runs its body at twenty grid points.  At point t the two row-blocked inputs are rows 5000 t … 5000 t + 4999 of
  their arrays, the two weights and the bias block are the whole of theirs at every point, and the body's one store fills
  the output's block, rows 5000 t … 5000 t + 4999 of the output array.  Entry (p, q) of what the body stores is the rectified
  sum layer of its blocks at (p, q), which reads row p of the row blocks only: that is entry (5000 t + p, q) of the SAME
  layer formula taken over the whole arrays.  So what every point writes back is its block of one whole-array function,
  the twenty blocks cover the output array, and the array ends holding that function — in whatever order the points ran.
-/
import proofs.«100718_j30081950941185_1_alg».proof.Proof.KernelIdealFrame
import proofs.«100718_j30081950941185_1_alg».proof.Proof.Payloads
import Idealize.ShloMosaic.Lib.Pipeline.Value

set_option maxRecDepth 16384

noncomputable section

namespace Cert.KernelIdeal.Layer1

open Cert.KernelIdeal Cert.KernelIdeal.Gen Cert.KernelIdeal.GenP
open Idealize.ShloMosaic Idealize.ShloMosaic.TcCoe Idealize.SL.Sem Idealize.ShloMosaic.ValueIdx Cert.LibSumLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block (t, 0), the resident ones at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer over the region's whole operand arrays as it finds them, the bias given as a length-128 row. -/
abbrev layer (c : Dev nD) (b : S128.Idx → EReal) : S100000x128.Idx → EReal :=
  sumLayer (Ideal.ofBits .f32 0x00000000#32) (V c main_v35 : S100000x128.Idx → EReal) (V c main_v23 : S100000x128.Idx → EReal)
    (V c main_arg6 : S128x128.Idx → EReal) (V c main_arg7 : S128x128.Idx → EReal) b

/-- What point t writes back is block t of the layer, when the bias block's row is b. -/
theorem flushed_eq (c : Dev nD) (b : S128.Idx → EReal)
    (hb : ∀ q : Fin 128, (V c main_v36 : S1x128.Idx → EReal) (ix2 (0 : Fin 1) q) = b (ix1 q)) (t : Fin cfg1.N) :
    (dat1 V c).flushed 5 t = ((cfg1.win 5).blk t).view.read (Elt Ideal) (layer V c b) := by
  have ht : t.val < 20 := lt_of_lt_of_eq t.isLt N_1
  obtain ⟨e00, e01, e10, e11, e20, e21, e30, e31, e40, e41, e50, e51⟩ := idx_facts t
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have hp : 5000 * t.val + p.val < 100000 := by have := p.isLt; omega
  -- the output's block at (p, q) is the array's entry (5000 t + p, q)
  have hemb : ((cfg1.win 5).blk t).view.emb (ix2 p q) = ix2 (⟨5000 * t.val + p.val, hp⟩ : Fin 100000) q := by
    funext a; apply Fin.ext
    match a with
    | ⟨0, _⟩ => show win1_5.index t (0 : Fin 2) * 5000 + 1 * p.val = 5000 * t.val + p.val; rw [e50]; omega
    | ⟨1, _⟩ => show win1_5.index t (1 : Fin 2) * 128 + 1 * q.val = q.val; rw [e51]; omega
  show k1_pay1 (F := Ideal) (iblk1 V c 0 t) (iblk1 V c 1 t) (iblk1 V c 2 t) (iblk1 V c 3 t) (iblk1 V c 4 t) (ix2 p q)
      = layer V c b (((cfg1.win 5).blk t).view.emb (ix2 p q))
  rw [hemb]
  refine (Payload.pay1_apply (iblk1 V c 0 t) (iblk1 V c 1 t) (iblk1 V c 2 t) (iblk1 V c 3 t) (iblk1 V c 4 t) p q).trans ?_
  -- each input block read where the output's row says
  have h0 : ∀ i : Fin 128, (iblk1 V c 0 t : Vec Ideal S5000x128 .f32) (ix2 p i) = (V c main_v35 : S100000x128.Idx → EReal) (ix2 (⟨5000 * t.val + p.val, hp⟩ : Fin 100000) i) := fun i => by
    show V c main_v35 (((cfg1.win 0).blk t).view.emb (ix2 p i)) = V c main_v35 _
    refine congrArg _ (funext fun a => Fin.ext ?_)
    match a with
    | ⟨0, _⟩ => show win1_0.index t (0 : Fin 2) * 5000 + 1 * p.val = 5000 * t.val + p.val; rw [e00]; omega
    | ⟨1, _⟩ => show win1_0.index t (1 : Fin 2) * 128 + 1 * i.val = i.val; rw [e01]; omega
  have h1 : ∀ i : Fin 128, (iblk1 V c 1 t : Vec Ideal S5000x128 .f32) (ix2 p i) = (V c main_v23 : S100000x128.Idx → EReal) (ix2 (⟨5000 * t.val + p.val, hp⟩ : Fin 100000) i) := fun i => by
    show V c main_v23 (((cfg1.win 1).blk t).view.emb (ix2 p i)) = V c main_v23 _
    refine congrArg _ (funext fun a => Fin.ext ?_)
    match a with
    | ⟨0, _⟩ => show win1_1.index t (0 : Fin 2) * 5000 + 1 * p.val = 5000 * t.val + p.val; rw [e10]; omega
    | ⟨1, _⟩ => show win1_1.index t (1 : Fin 2) * 128 + 1 * i.val = i.val; rw [e11]; omega
  have h2 : ∀ i : Fin 128, (iblk1 V c 2 t : Vec Ideal S128x128 .f32) (ix2 i q) = (V c main_arg6 : S128x128.Idx → EReal) (ix2 i q) := fun i => by
    show V c main_arg6 (((cfg1.win 2).blk t).view.emb (ix2 i q)) = V c main_arg6 _
    refine congrArg _ (funext fun a => Fin.ext ?_)
    match a with
    | ⟨0, _⟩ => show win1_2.index t (0 : Fin 2) * 128 + 1 * i.val = i.val; rw [e20]; omega
    | ⟨1, _⟩ => show win1_2.index t (1 : Fin 2) * 128 + 1 * q.val = q.val; rw [e21]; omega
  have h3 : ∀ i : Fin 128, (iblk1 V c 3 t : Vec Ideal S128x128 .f32) (ix2 i q) = (V c main_arg7 : S128x128.Idx → EReal) (ix2 i q) := fun i => by
    show V c main_arg7 (((cfg1.win 3).blk t).view.emb (ix2 i q)) = V c main_arg7 _
    refine congrArg _ (funext fun a => Fin.ext ?_)
    match a with
    | ⟨0, _⟩ => show win1_3.index t (0 : Fin 2) * 128 + 1 * i.val = i.val; rw [e30]; omega
    | ⟨1, _⟩ => show win1_3.index t (1 : Fin 2) * 128 + 1 * q.val = q.val; rw [e31]; omega
  have h4 : (iblk1 V c 4 t : Vec Ideal S1x128 .f32) (ix2 (0 : Fin 1) q) = b (ix1 q) := by
    refine Eq.trans ?_ (hb q)
    show V c main_v36 (((cfg1.win 4).blk t).view.emb (ix2 (0 : Fin 1) q)) = V c main_v36 _
    refine congrArg _ (funext fun a => Fin.ext ?_)
    match a with
    | ⟨0, _⟩ => show win1_4.index t (0 : Fin 2) * 1 + 1 * 0 = 0; rw [e40]
    | ⟨1, _⟩ => show win1_4.index t (1 : Fin 2) * 128 + 1 * q.val = q.val; rw [e41]; omega
  rw [h4]
  show max ((prodAt (iblk1 V c 0 t) (iblk1 V c 2 t) p q + prodAt (iblk1 V c 1 t) (iblk1 V c 3 t) p q) + b (ix1 q)) (Ideal.ofBits .f32 0x00000000#32)
      = max ((prodAt (V c main_v35 : S100000x128.Idx → EReal) (V c main_arg6 : S128x128.Idx → EReal) (⟨5000 * t.val + p.val, hp⟩ : Fin 100000) q
            + prodAt (V c main_v23 : S100000x128.Idx → EReal) (V c main_arg7 : S128x128.Idx → EReal) (⟨5000 * t.val + p.val, hp⟩ : Fin 100000) q)
          + b (ix1 q)) (Ideal.ofBits .f32 0x00000000#32)
  rw [prodAt_congr _ _ _ _ p _ q h0 h2, prodAt_congr _ _ _ _ p _ q h1 h3]

/-- An index of the output array is in point t's block iff its row is one of the block's 5000. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every entry of the output array is in some point's block: row r is in block r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, e50, e51⟩ := idx_facts t
  have etv : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e50, etv]; omega
  | ⟨1, _⟩ => show win1_5.index t (1 : Fin 2) * 128 ≤ (i 1).val ∧ (i 1).val < win1_5.index t (1 : Fin 2) * 128 + 128; rw [e51]; omega

/-- The output array after the region: the layer over the whole operand arrays. -/
theorem final (c : Dev nD) (b : S128.Idx → EReal)
    (hb : ∀ q : Fin 128, (V c main_v36 : S1x128.Idx → EReal) (ix2 (0 : Fin 1) q) = b (ix1 q)) :
    (dat1 V c).arrAt 5 cfg1.N = layer V c b :=
  (dat1 V c).arrAt_eq_of_cover 5 (layer V c b) (fun t _ => flushed_eq V c b hb t) cover

end Cert.KernelIdeal.Layer1

end
-- ==== Proof.Region2.lean ====
/-
  The head region: its output array after the run is the affine layer of its three operand arrays.

  The region has one grid point, and every window's block is its whole array: the body loads the pooled matrix, the head
  weight and the bias block whole, and its one store fills the whole output.  Entry (p, q) of what it stores is the
  affine layer of those arrays at (p, q), so the one write-back is the whole-array function itself and its one block
  covers the output array.
-/
import proofs.«100718_j30081950941185_1_alg».proof.Proof.KernelIdealFrame
import proofs.«100718_j30081950941185_1_alg».proof.Proof.Payloads
import Idealize.ShloMosaic.Lib.Pipeline.Value

set_option maxRecDepth 16384

noncomputable section

namespace Cert.KernelIdeal.Head

open Cert.KernelIdeal Cert.KernelIdeal.Gen Cert.KernelIdeal.GenP
open Idealize.ShloMosaic Idealize.ShloMosaic.TcCoe Idealize.SL.Sem Idealize.ShloMosaic.ValueIdx Cert.LibSumLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: every window is at block (0, 0). -/
theorem idx_facts : ∀ t : Fin cfg2.N,
      win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The layer over the region's whole operand arrays as it finds them, the bias given as a length-8 row. -/
abbrev layer (c : Dev nD) (b : S8.Idx → EReal) : S1000x8.Idx → EReal :=
  affine (V c main_v48 : S1000x128.Idx → EReal) (V c main_arg9 : S128x8.Idx → EReal) b

/-- What the one point writes back is the layer, when the bias block's row is b. -/
theorem flushed_eq (c : Dev nD) (b : S8.Idx → EReal)
    (hb : ∀ q : Fin 8, (V c main_v49 : S1x8.Idx → EReal) (ix2 (0 : Fin 1) q) = b (ix1 q)) (t : Fin cfg2.N) :
    (dat2 V c).flushed 3 t = ((cfg2.win 3).blk t).view.read (Elt Ideal) (layer V c b) := by
  obtain ⟨e00, e01, e10, e11, e20, e21, e30, e31⟩ := idx_facts t
  show (cfg2.win 3).cut (grid2.coords t) ((dat2 V c).after 3 t) = _
  rw [after2_3]
  unfold out2_3
  rw [View.canon_unit_zero hz]
  simp only [View.ld_unit_zero (S := S1000x128) hz, View.ld_unit_zero (S := S128x8) hz, View.ld_unit_zero (S := S1x8) hz]
  funext j
  obtain ⟨p, q, rfl⟩ : ∃ (p : Fin 1000) (q : Fin 8), j = ix2 p q := ⟨j 0, j 1, eq_ix2 j⟩
  have hemb : ((cfg2.win 3).blk t).view.emb (ix2 p q) = ix2 p q := by
    funext a; apply Fin.ext
    match a with
    | ⟨0, _⟩ => show win2_3.index t (0 : Fin 2) * 1000 + 1 * p.val = p.val; rw [e30]; omega
    | ⟨1, _⟩ => show win2_3.index t (1 : Fin 2) * 8 + 1 * q.val = q.val; rw [e31]; omega
  show k2_pay1 (F := Ideal) (iblk2 V c 0 t) (iblk2 V c 1 t) (iblk2 V c 2 t) (ix2 p q)
      = layer V c b (((cfg2.win 3).blk t).view.emb (ix2 p q))
  rw [hemb]
  refine (Payload.pay2_apply (iblk2 V c 0 t) (iblk2 V c 1 t) (iblk2 V c 2 t) p q).trans ?_
  have h0 : ∀ i : Fin 128, (iblk2 V c 0 t : Vec Ideal S1000x128 .f32) (ix2 p i) = (V c main_v48 : S1000x128.Idx → EReal) (ix2 p i) := fun i => by
    show V c main_v48 (((cfg2.win 0).blk t).view.emb (ix2 p i)) = V c main_v48 _
    refine congrArg _ (funext fun a => Fin.ext ?_)
    match a with
    | ⟨0, _⟩ => show win2_0.index t (0 : Fin 2) * 1000 + 1 * p.val = p.val; rw [e00]; omega
    | ⟨1, _⟩ => show win2_0.index t (1 : Fin 2) * 128 + 1 * i.val = i.val; rw [e01]; omega
  have h1 : ∀ i : Fin 128, (iblk2 V c 1 t : Vec Ideal S128x8 .f32) (ix2 i q) = (V c main_arg9 : S128x8.Idx → EReal) (ix2 i q) := fun i => by
    show V c main_arg9 (((cfg2.win 1).blk t).view.emb (ix2 i q)) = V c main_arg9 _
    refine congrArg _ (funext fun a => Fin.ext ?_)
    match a with
    | ⟨0, _⟩ => show win2_1.index t (0 : Fin 2) * 128 + 1 * i.val = i.val; rw [e10]; omega
    | ⟨1, _⟩ => show win2_1.index t (1 : Fin 2) * 8 + 1 * q.val = q.val; rw [e11]; omega
  have h2 : (iblk2 V c 2 t : Vec Ideal S1x8 .f32) (ix2 (0 : Fin 1) q) = b (ix1 q) := by
    refine Eq.trans ?_ (hb q)
    show V c main_v49 (((cfg2.win 2).blk t).view.emb (ix2 (0 : Fin 1) q)) = V c main_v49 _
    refine congrArg _ (funext fun a => Fin.ext ?_)
    match a with
    | ⟨0, _⟩ => show win2_2.index t (0 : Fin 2) * 1 + 1 * 0 = 0; rw [e20]
    | ⟨1, _⟩ => show win2_2.index t (1 : Fin 2) * 8 + 1 * q.val = q.val; rw [e21]; omega
  rw [h2]
  show prodAt (iblk2 V c 0 t) (iblk2 V c 1 t) p q + b (ix1 q)
      = prodAt (V c main_v48 : S1000x128.Idx → EReal) (V c main_arg9 : S128x8.Idx → EReal) p q + b (ix1 q)
  rw [prodAt_congr _ _ _ _ p p q h0 h1]

/-- An index of the output array is in the point's block iff each coordinate is in the block's range. -/
theorem mem_blk (t : Fin cfg2.N) (i : S1000x8.Idx) :
    i ∈ ((cfg2.win 3).blk t).view.set ↔ ∀ a : Fin 2, win2_3.index t a * S1000x8.size a ≤ (i a).val ∧ (i a).val < win2_3.index t a * S1000x8.size a + S1000x8.size a := by
  show i ∈ ((View.whole main_v50).slice (win2_3.rect t)).set ↔ _
  rw [View.set_slice_whole, Rect.mem_set_unit]
  exact Iff.rfl

/-- Every entry of the output array is in the one point's block. -/
theorem cover (i : S1000x8.Idx) : ∃ t : Fin cfg2.N, (cfg2.win 3).flush t = true ∧ i ∈ ((cfg2.win 3).blk t).view.set := by
  have hi0 : (i 0).val < 1000 := (i 0).isLt
  have hi1 : (i 1).val < 8 := (i 1).isLt
  obtain ⟨-, -, -, -, -, -, e30, e31⟩ := idx_facts t2_0
  refine ⟨t2_0, flush2_3 t2_0, ?_⟩
  rw [mem_blk]
  intro a
  match a with
  | ⟨0, _⟩ => show win2_3.index t2_0 (0 : Fin 2) * 1000 ≤ (i 0).val ∧ (i 0).val < win2_3.index t2_0 (0 : Fin 2) * 1000 + 1000; rw [e30]; omega
  | ⟨1, _⟩ => show win2_3.index t2_0 (1 : Fin 2) * 8 ≤ (i 1).val ∧ (i 1).val < win2_3.index t2_0 (1 : Fin 2) * 8 + 8; rw [e31]; omega

/-- The output array after the region: the layer over the whole operand arrays. -/
theorem final (c : Dev nD) (b : S8.Idx → EReal)
    (hb : ∀ q : Fin 8, (V c main_v49 : S1x8.Idx → EReal) (ix2 (0 : Fin 1) q) = b (ix1 q)) :
    (dat2 V c).arrAt 3 cfg2.N = layer V c b :=
  (dat2 V c).arrAt_eq_of_cover 3 (layer V c b) (fun t _ => flushed_eq V c b hb t) cover

end Cert.KernelIdeal.Head

end
-- ==== Proof.RefLayers.lean ====
/-
  The reference's three layers, each as one array function of the stage before it.

  The reference computes a layer as two whole-matrix products added, a bias row broadcast down the rows added to that, and
  (for the two graph layers) the maximum with zero.  Read at an entry (p, q) each product is the sum over the inner index k of
  the left factor at (p, k) times the weight at (k, q), and the broadcast bias is the row's entry q: the rectified sum layer
  and the affine layer of the left factors, whatever those are — the neighbourhood means stay opaque here.
-/
import proofs.«100718_j30081950941185_1_alg».proof.Proof.Gen.ReferenceIdeal.Run
import proofs.«100718_j30081950941185_1_alg».proof.Proof.Gen.ReferenceIdeal.Read
import proofs.«100718_j30081950941185_1_alg».proof.Proof.LibSumLayer

noncomputable section

namespace Cert.ReferenceIdeal.Layers

open Cert.ReferenceIdeal Cert.ReferenceIdeal.Read Idealize.ShloMosaic Idealize.ShloMosaic.ValueIdx Cert.LibSumLayer

/-- The first graph layer: relu ((mean · W1_l + x · W1_r) + b1), the mean of the neighbours' input features being stage 21. -/
theorem layer1_eq (x0 : (⟨S100000x64, .f32⟩ : BufTy).Contents (Elt Ideal)) (x1 : (⟨S2x1600000, .i32⟩ : BufTy).Contents (Elt Ideal))
    (x3 x4 : (⟨S64x128, .f32⟩ : BufTy).Contents (Elt Ideal)) (x5 : (⟨S128, .f32⟩ : BufTy).Contents (Elt Ideal)) :
    val_main_v28 (F := Ideal) x0 x1 x3 x4 x5
      = sumLayer (Ideal.ofBits .f32 0x00000000#32) (val_main_v21 (F := Ideal) x0 x1) x0 x3 x4 x5 := by
  funext i
  obtain ⟨p, q, rfl⟩ : ∃ (p : Fin 100000) (q : Fin 128), i = ix2 p q := ⟨i 0, i 1, eq_ix2 i⟩
  have el : ∀ k : Fin 64, lidx_main_v22 (ix2 p q) k = ix2 p k := fun k => funext fun a => Fin.ext (by match a with | ⟨0, _⟩ => rfl | ⟨1, _⟩ => rfl)
  have er : ∀ k : Fin 64, ridx_main_v22 (ix2 p q) k = ix2 k q := fun k => funext fun a => Fin.ext (by match a with | ⟨0, _⟩ => rfl | ⟨1, _⟩ => rfl)
  have el' : ∀ k : Fin 64, lidx_main_v23 (ix2 p q) k = ix2 p k := fun k => funext fun a => Fin.ext (by match a with | ⟨0, _⟩ => rfl | ⟨1, _⟩ => rfl)
  have er' : ∀ k : Fin 64, ridx_main_v23 (ix2 p q) k = ix2 k q := fun k => funext fun a => Fin.ext (by match a with | ⟨0, _⟩ => rfl | ⟨1, _⟩ => rfl)
  have eb : idx_main_v25 (idx_main_v26 (ix2 p q)) = ix1 q := funext fun a => Fin.ext (by match a with | ⟨0, _⟩ => rfl)
  rw [val_main_v28_apply, val_main_v27_apply, val_main_v24_apply, val_main_v22_apply, val_main_v23_apply, val_main_v26_apply,
    val_main_v25_apply, val_main_call0_v0_apply, val_main_call0_cst_apply, sumLayer_ix2]
  simp only [el, er, el', er', eb]
  rfl

/-- The second graph layer: relu ((mean · W2_l + h · W2_r) + b2), h the first layer's output (stage 28) and the mean of the
    neighbours' rows of h being stage 46. -/
theorem layer2_eq (x0 : (⟨S100000x64, .f32⟩ : BufTy).Contents (Elt Ideal)) (x1 : (⟨S2x1600000, .i32⟩ : BufTy).Contents (Elt Ideal))
    (x3 x4 : (⟨S64x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v53 (F := Ideal) x0 x1 x3 x4 x5 x6 x7 x8
      = sumLayer (Ideal.ofBits .f32 0x00000000#32) (val_main_v46 (F := Ideal) x0 x1 x3 x4 x5) (val_main_v28 (F := Ideal) x0 x1 x3 x4 x5) x6 x7 x8 := by
  funext i
  obtain ⟨p, q, rfl⟩ : ∃ (p : Fin 100000) (q : Fin 128), i = ix2 p q := ⟨i 0, i 1, eq_ix2 i⟩
  have el : ∀ k : Fin 128, lidx_main_v47 (ix2 p q) k = ix2 p k := fun k => funext fun a => Fin.ext (by match a with | ⟨0, _⟩ => rfl | ⟨1, _⟩ => rfl)
  have er : ∀ k : Fin 128, ridx_main_v47 (ix2 p q) k = ix2 k q := fun k => funext fun a => Fin.ext (by match a with | ⟨0, _⟩ => rfl | ⟨1, _⟩ => rfl)
  have el' : ∀ k : Fin 128, lidx_main_v48 (ix2 p q) k = ix2 p k := fun k => funext fun a => Fin.ext (by match a with | ⟨0, _⟩ => rfl | ⟨1, _⟩ => rfl)
  have er' : ∀ k : Fin 128, ridx_main_v48 (ix2 p q) k = ix2 k q := fun k => funext fun a => Fin.ext (by match a with | ⟨0, _⟩ => rfl | ⟨1, _⟩ => rfl)
  have eb : idx_main_v50 (idx_main_v51 (ix2 p q)) = ix1 q := funext fun a => Fin.ext (by match a with | ⟨0, _⟩ => rfl)
  rw [val_main_v53_apply, val_main_v52_apply, val_main_v49_apply, val_main_v47_apply, val_main_v48_apply, val_main_v51_apply,
    val_main_v50_apply, val_main_call1_v0_apply, val_main_call1_cst_apply, sumLayer_ix2]
  simp only [el, er, el', er', eb]
  rfl

/-- The head: pooled · Wh + bh, the per-graph mean of the second layer's rows being stage 64. -/
theorem head_eq (x0 : (⟨S100000x64, .f32⟩ : BufTy).Contents (Elt Ideal)) (x1 : (⟨S2x1600000, .i32⟩ : BufTy).Contents (Elt Ideal))
    (x2 : (⟨S100000, .i32⟩ : BufTy).Contents (Elt Ideal))
    (x3 x4 : (⟨S64x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal))
    (x9 : (⟨S128x8, .f32⟩ : BufTy).Contents (Elt Ideal)) (x10 : (⟨S8, .f32⟩ : BufTy).Contents (Elt Ideal)) :
    val_main_v68 (F := Ideal) x0 x1 x2 x3 x4 x5 x6 x7 x8 x9 x10 = affine (val_main_v64 (F := Ideal) x0 x1 x2 x3 x4 x5 x6 x7 x8) x9 x10 := by
  funext i
  obtain ⟨p, q, rfl⟩ : ∃ (p : Fin 1000) (q : Fin 8), i = ix2 p q := ⟨i 0, i 1, eq_ix2 i⟩
  have el : ∀ k : Fin 128, lidx_main_v65 (ix2 p q) k = ix2 p k := fun k => funext fun a => Fin.ext (by match a with | ⟨0, _⟩ => rfl | ⟨1, _⟩ => rfl)
  have er : ∀ k : Fin 128, ridx_main_v65 (ix2 p q) k = ix2 k q := fun k => funext fun a => Fin.ext (by match a with | ⟨0, _⟩ => rfl | ⟨1, _⟩ => rfl)
  have eb : idx_main_v66 (idx_main_v67 (ix2 p q)) = ix1 q := funext fun a => Fin.ext (by match a with | ⟨0, _⟩ => rfl)
  rw [val_main_v68_apply, val_main_v65_apply, val_main_v67_apply, val_main_v66_apply, affine_ix2]
  simp only [el, er, eb]
  rfl

end Cert.ReferenceIdeal.Layers

end
-- ==== Proof.Bridge.lean ====
/-
  The kernel's buffers at its segment boundaries, identified with the reference's stages.

  Outside its three regions the kernel's @main is the reference's own host code: the edge lists sliced out of edge_index,
  the in-degree count clipped below at one, the neighbours' rows gathered and summed by destination and divided by the
  count, the second layer's rows summed by graph and divided by the graph's clipped size.  So each host stretch, read as a
  term of the buffers it is entered with, IS the corresponding stretch of the reference's stages, and each region's output
  array is the reference's layer of the same operands (the region modules and the reference's layers, both through one
  array formula).  Walking the six segments in order: the first layer's output is the reference's stage 28, the second
  layer's its stage 53, and the head's output its result, stage 68.  The kernel counts the in-degrees once where the
  reference counts them again for the second layer; both are the same term of edge_index.
-/
import proofs.«100718_j30081950941185_1_alg».proof.Proof.KernelIdealFrame
import proofs.«100718_j30081950941185_1_alg».proof.Proof.Region0
import proofs.«100718_j30081950941185_1_alg».proof.Proof.Region1
import proofs.«100718_j30081950941185_1_alg».proof.Proof.Region2
import proofs.«100718_j30081950941185_1_alg».proof.Proof.RefLayers
import Idealize.ShloMosaic.Lib.StableHlo.Run
import Idealize.ShloMosaic.Lib.ValueLayout

set_option maxRecDepth 16384

noncomputable section

namespace Cert.KernelIdeal.Bridge

open Cert.KernelIdeal Cert.KernelIdeal.Gen Cert.KernelIdeal.GenP
open Idealize.ShloMosaic Idealize.ShloMosaic.TcCoe Idealize.SL.Sem Idealize.ShloMosaic.StableHlo Idealize.ShloMosaic.ValueIdx
open Cert.LibSumLayer Cert.ReferenceIdeal.Read Cert.ReferenceIdeal.Layers

variable (m : (ℓ : Loc nD τ sig) → Buf (Elt Ideal) ℓ) (ρ : Dev nD → PrngReg) (c : Dev nD)

/-! ## After the first host stretch: the arguments as launched, the edge lists, the clipped in-degree, the first mean -/

theorem w1_arg0 : W1 m ρ c (Proc.devRef .tc main_arg0) = (m ((c : Thread nD τ).loc main_arg0)) := by
  show StableHlo.after hostOps0 (W0 m ρ c) (Proc.devRef .tc main_arg0) = _
  dsimp only [hostOps0]
  after_results
theorem w1_arg2 : W1 m ρ c (Proc.devRef .tc main_arg2) = (m ((c : Thread nD τ).loc main_arg2)) := by
  show StableHlo.after hostOps0 (W0 m ρ c) (Proc.devRef .tc main_arg2) = _
  dsimp only [hostOps0]
  after_results
theorem w1_arg3 : W1 m ρ c (Proc.devRef .tc main_arg3) = (m ((c : Thread nD τ).loc main_arg3)) := by
  show StableHlo.after hostOps0 (W0 m ρ c) (Proc.devRef .tc main_arg3) = _
  dsimp only [hostOps0]
  after_results
theorem w1_arg4 : W1 m ρ c (Proc.devRef .tc main_arg4) = (m ((c : Thread nD τ).loc main_arg4)) := by
  show StableHlo.after hostOps0 (W0 m ρ c) (Proc.devRef .tc main_arg4) = _
  dsimp only [hostOps0]
  after_results
theorem w1_arg6 : W1 m ρ c (Proc.devRef .tc main_arg6) = (m ((c : Thread nD τ).loc main_arg6)) := by
  show StableHlo.after hostOps0 (W0 m ρ c) (Proc.devRef .tc main_arg6) = _
  dsimp only [hostOps0]
  after_results
theorem w1_arg7 : W1 m ρ c (Proc.devRef .tc main_arg7) = (m ((c : Thread nD τ).loc main_arg7)) := by
  show StableHlo.after hostOps0 (W0 m ρ c) (Proc.devRef .tc main_arg7) = _
  dsimp only [hostOps0]
  after_results
theorem w1_arg8 : W1 m ρ c (Proc.devRef .tc main_arg8) = (m ((c : Thread nD τ).loc main_arg8)) := by
  show StableHlo.after hostOps0 (W0 m ρ c) (Proc.devRef .tc main_arg8) = _
  dsimp only [hostOps0]
  after_results
theorem w1_arg9 : W1 m ρ c (Proc.devRef .tc main_arg9) = (m ((c : Thread nD τ).loc main_arg9)) := by
  show StableHlo.after hostOps0 (W0 m ρ c) (Proc.devRef .tc main_arg9) = _
  dsimp only [hostOps0]
  after_results
theorem w1_arg10 : W1 m ρ c (Proc.devRef .tc main_arg10) = (m ((c : Thread nD τ).loc main_arg10)) := by
  show StableHlo.after hostOps0 (W0 m ρ c) (Proc.devRef .tc main_arg10) = _
  dsimp only [hostOps0]
  after_results

/-- The source list is the reference's stage 1. -/
theorem w1_v1 : W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results
  rfl
/-- The destination list is the reference's stage 3. -/
theorem w1_v3 : W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results
  rfl
/-- The in-degree clipped below at one is the reference's stage 19. -/
theorem w1_v9 : W1 m ρ c (Proc.devRef .tc main_v9) = val_main_v19 (F := Ideal) (m ((c : Thread nD τ).loc main_arg1)) := by
  show StableHlo.after hostOps0 (W0 m ρ c) (Proc.devRef .tc main_v9) = _
  dsimp only [hostOps0]
  after_results
  rfl
set_option maxHeartbeats 2000000 in
/-- The mean of the neighbours' input features is the reference's stage 21. -/
theorem w1_v21 : W1 m ρ c (Proc.devRef .tc main_v21) = val_main_v21 (F := Ideal) (m ((c : Thread nD τ).loc main_arg0)) (m ((c : Thread nD τ).loc main_arg1)) := by
  show StableHlo.after hostOps0 (W0 m ρ c) (Proc.devRef .tc main_v21) = _
  dsimp only [hostOps0]
  after_results
  rfl
/-- The first bias block is the bias row given a leading unit axis. -/
theorem w1_v22 : W1 m ρ c (Proc.devRef .tc main_v22) = shapeCast S1x128 (m ((c : Thread nD τ).loc main_arg5)) shapeCasts_S128_S1x128 := by
  show StableHlo.after hostOps0 (W0 m ρ c) (Proc.devRef .tc main_v22) = _
  dsimp only [hostOps0]
  after_results
  rfl

/-! ## After the first region: the first layer's output -/

/-- The first region's output array is the reference's stage 28. -/
theorem w2_v23 : W2 m ρ c (Proc.devRef .tc main_v23) = val_main_v28 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have hb : ∀ q : Fin 128, (V1 m ρ c main_v22 : S1x128.Idx → EReal) (ix2 (0 : Fin 1) q) = ((m ((c : Thread nD τ).loc main_arg5)) : S128.Idx → EReal) (ix1 q) := fun q => by
    show (W1 m ρ c (Proc.devRef .tc main_v22) : S1x128.Idx → EReal) (ix2 (0 : Fin 1) q) = _
    rw [w1_v22 m ρ c]
    exact shapeCast_a_1a_apply _ _ 0 q
  refine ((W2_arr m ρ c 5).trans (Layer0.final (V1 m ρ) c (m ((c : Thread nD τ).loc main_arg5)) hb)).trans ?_
  rw [layer1_eq]
  show sumLayer _ (W1 m ρ c (Proc.devRef .tc main_v21)) (W1 m ρ c (Proc.devRef .tc main_arg0)) (W1 m ρ c (Proc.devRef .tc main_arg3))
      (W1 m ρ c (Proc.devRef .tc main_arg4)) _ = _
  rw [w1_v21 m ρ c, w1_arg0 m ρ c, w1_arg3 m ρ c, w1_arg4 m ρ c]

theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_v9 : W2 m ρ c (Proc.devRef .tc main_v9) = val_main_v19 (F := Ideal) (m ((c : Thread nD τ).loc main_arg1)) :=
  (W2_of_ne m ρ c main_v9 (by decide)).trans (w1_v9 m ρ c)
theorem w2_arg2 : W2 m ρ c (Proc.devRef .tc main_arg2) = (m ((c : Thread nD τ).loc main_arg2)) :=
  (W2_of_ne m ρ c main_arg2 (by decide)).trans (w1_arg2 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)
theorem w2_arg10 : W2 m ρ c (Proc.devRef .tc main_arg10) = (m ((c : Thread nD τ).loc main_arg10)) :=
  (W2_of_ne m ρ c main_arg10 (by decide)).trans (w1_arg10 m ρ c)

/-! ## After the second host stretch: the second mean -/

set_option maxHeartbeats 2000000 in
/-- The mean of the neighbours' first-layer rows is the reference's stage 46. -/
theorem w3_v35 : W3 m ρ c (Proc.devRef .tc main_v35) = val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v35) = _
  dsimp only [hostOps1]
  after_results
  rw [w2_v23 m ρ c, w2_v1 m ρ c, w2_v3 m ρ c, w2_v9 m ρ c]
  rfl
/-- The first layer's output is kept by the stretch. -/
theorem w3_v23 : W3 m ρ c (Proc.devRef .tc main_v23) = val_main_v28 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v23) = _
  dsimp only [hostOps1]
  after_results
  exact w2_v23 m ρ c
/-- The second bias block is the bias row given a leading unit axis. -/
theorem w3_v36 : W3 m ρ c (Proc.devRef .tc main_v36) = shapeCast S1x128 (m ((c : Thread nD τ).loc main_arg8)) shapeCasts_S128_S1x128 := by
  show StableHlo.after hostOps1 (W2 m ρ c) (Proc.devRef .tc main_v36) = _
  dsimp only [hostOps1]
  after_results
  rw [w2_arg8 m ρ c]
  rfl
theorem w3_arg2 : W3 m ρ c (Proc.devRef .tc main_arg2) = (m ((c : Thread nD τ).loc main_arg2)) := by
  show StableHlo.after hostOps1 (W2 m ρ c) (Proc.devRef .tc main_arg2) = _
  dsimp only [hostOps1]
  after_results
  exact w2_arg2 m ρ c
theorem w3_arg6 : W3 m ρ c (Proc.devRef .tc main_arg6) = (m ((c : Thread nD τ).loc main_arg6)) := by
  show StableHlo.after hostOps1 (W2 m ρ c) (Proc.devRef .tc main_arg6) = _
  dsimp only [hostOps1]
  after_results
  exact w2_arg6 m ρ c
theorem w3_arg7 : W3 m ρ c (Proc.devRef .tc main_arg7) = (m ((c : Thread nD τ).loc main_arg7)) := by
  show StableHlo.after hostOps1 (W2 m ρ c) (Proc.devRef .tc main_arg7) = _
  dsimp only [hostOps1]
  after_results
  exact w2_arg7 m ρ c
theorem w3_arg9 : W3 m ρ c (Proc.devRef .tc main_arg9) = (m ((c : Thread nD τ).loc main_arg9)) := by
  show StableHlo.after hostOps1 (W2 m ρ c) (Proc.devRef .tc main_arg9) = _
  dsimp only [hostOps1]
  after_results
  exact w2_arg9 m ρ c
theorem w3_arg10 : W3 m ρ c (Proc.devRef .tc main_arg10) = (m ((c : Thread nD τ).loc main_arg10)) := by
  show StableHlo.after hostOps1 (W2 m ρ c) (Proc.devRef .tc main_arg10) = _
  dsimp only [hostOps1]
  after_results
  exact w2_arg10 m ρ c

/-! ## After the second region: the second layer's output -/

/-- The second region's output array is the reference's stage 53. -/
theorem w4_v37 : W4 m ρ c (Proc.devRef .tc main_v37) = val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hb : ∀ q : Fin 128, (V3 m ρ c main_v36 : S1x128.Idx → EReal) (ix2 (0 : Fin 1) q) = ((m ((c : Thread nD τ).loc main_arg8)) : S128.Idx → EReal) (ix1 q) := fun q => by
    show (W3 m ρ c (Proc.devRef .tc main_v36) : S1x128.Idx → EReal) (ix2 (0 : Fin 1) q) = _
    rw [w3_v36 m ρ c]
    exact shapeCast_a_1a_apply _ _ 0 q
  refine ((W4_arr m ρ c 5).trans (Layer1.final (V3 m ρ) c (m ((c : Thread nD τ).loc main_arg8)) hb)).trans ?_
  rw [layer2_eq]
  show sumLayer _ (W3 m ρ c (Proc.devRef .tc main_v35)) (W3 m ρ c (Proc.devRef .tc main_v23)) (W3 m ρ c (Proc.devRef .tc main_arg6))
      (W3 m ρ c (Proc.devRef .tc main_arg7)) _ = _
  rw [w3_v35 m ρ c, w3_v23 m ρ c, w3_arg6 m ρ c, w3_arg7 m ρ c]

theorem w4_arg2 : W4 m ρ c (Proc.devRef .tc main_arg2) = (m ((c : Thread nD τ).loc main_arg2)) :=
  (W4_of_ne m ρ c main_arg2 (by decide)).trans (w3_arg2 m ρ c)
theorem w4_arg9 : W4 m ρ c (Proc.devRef .tc main_arg9) = (m ((c : Thread nD τ).loc main_arg9)) :=
  (W4_of_ne m ρ c main_arg9 (by decide)).trans (w3_arg9 m ρ c)
theorem w4_arg10 : W4 m ρ c (Proc.devRef .tc main_arg10) = (m ((c : Thread nD τ).loc main_arg10)) :=
  (W4_of_ne m ρ c main_arg10 (by decide)).trans (w3_arg10 m ρ c)

/-! ## After the third host stretch: the pooled matrix -/

set_option maxHeartbeats 2000000 in
/-- The per-graph mean of the second layer's rows is the reference's stage 64. -/
theorem w5_v48 : W5 m ρ c (Proc.devRef .tc main_v48) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v48) = _
  dsimp only [hostOps2]
  after_results
  rw [w4_v37 m ρ c, w4_arg2 m ρ c]
  rfl
/-- The head's bias block is the bias row given a leading unit axis. -/
theorem w5_v49 : W5 m ρ c (Proc.devRef .tc main_v49) = shapeCast S1x8 (m ((c : Thread nD τ).loc main_arg10)) shapeCasts_S8_S1x8 := by
  show StableHlo.after hostOps2 (W4 m ρ c) (Proc.devRef .tc main_v49) = _
  dsimp only [hostOps2]
  after_results
  rw [w4_arg10 m ρ c]
  rfl
theorem w5_arg9 : W5 m ρ c (Proc.devRef .tc main_arg9) = (m ((c : Thread nD τ).loc main_arg9)) := by
  show StableHlo.after hostOps2 (W4 m ρ c) (Proc.devRef .tc main_arg9) = _
  dsimp only [hostOps2]
  after_results
  exact w4_arg9 m ρ c

/-! ## After the third region: the result -/

/-- The kernel's result buffer ends at the reference's result, stage 68, of the same arguments. -/
theorem result_eq : W6 m ρ c (Proc.devRef .tc main_v50)
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hb : ∀ q : Fin 8, (V5 m ρ c main_v49 : S1x8.Idx → EReal) (ix2 (0 : Fin 1) q) = ((m ((c : Thread nD τ).loc main_arg10)) : S8.Idx → EReal) (ix1 q) := fun q => by
    show (W5 m ρ c (Proc.devRef .tc main_v49) : S1x8.Idx → EReal) (ix2 (0 : Fin 1) q) = _
    rw [w5_v49 m ρ c]
    exact shapeCast_a_1a_apply _ _ 0 q
  refine ((W6_arr m ρ c 3).trans (Head.final (V5 m ρ) c (m ((c : Thread nD τ).loc main_arg10)) hb)).trans ?_
  rw [head_eq]
  show affine (W5 m ρ c (Proc.devRef .tc main_v48)) (W5 m ρ c (Proc.devRef .tc main_arg9)) _ = _
  rw [w5_v48 m ρ c, w5_arg9 m ρ c]

end Cert.KernelIdeal.Bridge

end
-- ==== Proof.lean ====
/-
  A two-layer neighbourhood-mean graph network with per-graph mean pooling and a linear head: the kernel against its
  reference, equal as extended reals.

  Both programs compute, for node features x, an edge list (src, dst), a graph id per node and weights:
    cnt  = max (in-degree by dst, 1)
    h1   = max ((mean_dst (x at src) · W1_l + x · W1_r) + b1, 0)
    h2   = max ((mean_dst (h1 at src) · W2_l + h1 · W2_r) + b2, 0)
    out  = (sum of h2 by graph / max (graph size, 1)) · Wh + bh
  where mean_dst (·) sums the gathered rows by destination and divides by cnt.  The reference does all of it on the host.
  The kernel keeps the gathers, the sums by destination and by graph and the divisions on the host — the same operations
  on the same operands — and runs the three dense layers as kernel regions: the two graph layers over twenty blocks of
  5000 rows each, the head over one whole-array block.  An entry (p, q) of a dense layer reads row p of its left factors
  and column q of its weights only, so a block of rows of the layer is the layer of the block of rows; the narrowing to
  bf16 before each product is the identity on extended reals; and each product is the textbook sum over the inner index
  on both sides.  Nothing is rearranged and no sum is split, so the equality needs no finiteness of the inputs: the
  precondition is never opened.

  The three frames: the two kernel programs' are their frame certificates; the reference's is its run with the result
  dropped.  The idealization rewrote no operation, so nothing is owed for it.  The value: the kernel's run ends with its
  result buffer at the last region's output array, which the walk through the six segments identifies with the
  reference's result term of the same arguments.
-/
import proofs.«100718_j30081950941185_1_alg».proof.Defs
import proofs.«100718_j30081950941185_1_alg».proof.Proof.Gen.Kernel
import proofs.«100718_j30081950941185_1_alg».proof.Proof.Gen.KernelIdeal
import proofs.«100718_j30081950941185_1_alg».proof.Proof.Gen.ReferenceIdeal
import proofs.«100718_j30081950941185_1_alg».proof.Proof.Gen.Pre_finite_inputs
import proofs.«100718_j30081950941185_1_alg».proof.Proof.Gen.ReferenceIdeal.Run
import proofs.«100718_j30081950941185_1_alg».proof.Proof.Gen.ReferenceIdeal.Read
import proofs.«100718_j30081950941185_1_alg».proof.Proof.KernelFrame
import proofs.«100718_j30081950941185_1_alg».proof.Proof.KernelIdealFrame
import proofs.«100718_j30081950941185_1_alg».proof.Proof.KernelRun
import proofs.«100718_j30081950941185_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.GenP.frame m ρ

/-- The idealized kernel runs, and its arguments end unchanged. -/
theorem frame_kernelIdeal : Cert.frame_KernelIdeal := fun m ρ _ => Cert.KernelIdeal.GenP.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the kernel's result buffer ends at the reference's
    result term of the shared arguments. -/
theorem algebraic : Cert.algebraic_KernelIdeal_ReferenceIdeal := by
  intro m ρ m' ρ' _ hagree
  refine ⟨fun c => Cert.KernelIdeal.GenP.W6 m ρ c (Proc.devRef .tc Cert.KernelIdeal.main_v50),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v68_eq, h0, h1, h2, h3, h4, h5, h6, h7, h8, h9, h10]
  exact (Cert.KernelIdeal.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
